-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x1 : Shape := ⟨2, ![600000, 1]⟩
abbrev S64x128 : Shape := ⟨2, ![64, 128]⟩
abbrev S64 : Shape := ⟨1, ![64]⟩
abbrev S64x64 : Shape := ⟨2, ![64, 64]⟩
abbrev S_ : Shape := ⟨0, ![]⟩
abbrev S32x64 : Shape := ⟨2, ![32, 64]⟩
abbrev S32 : Shape := ⟨1, ![32]⟩
abbrev S32x32 : Shape := ⟨2, ![32, 32]⟩
abbrev S1x32 : Shape := ⟨2, ![1, 32]⟩
abbrev S1 : Shape := ⟨1, ![1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S_S_d : S_.ReducesTo [] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v66 : IVec S_ 1) (main_v67 : FVec F S1x32 .f32) : IVec S_ 1 :=
  let main_cst_26 : FVec F S_ .f32 := constant S_ .f32 0x7F800000#32
  let main_v68 : FVec F S1x32 .f32 := broadcastInDim S1x32 ![] bcast_S_S1x32 main_cst_26
  let main_v69 : IVec S1x32 1 := cmpf .olt main_v67 main_v68
  let main_c_27 : IVec S_ 1 := constantI S_ 1 1#1
  let main_v70 : IVec S_ 1 := (fun x v => Host.reduce IntOp.andi x v reducesTo_S1x32_S_d0_1 h_S_) main_v69 main_c_27
  let main_v71 : IVec S_ 1 := andi main_v66 main_v70
  main_v71

def fn_part3 {F : FTy → Type} [FloatOps F] (main_arg12 : FVec F S_ .f32) (main_arg13 : FVec F S1x32 .f32) (main_arg14 : FVec F S1 .f32) (main_arg15 : FVec F S1x32 .f32) (main_v47 : IVec S_ 1) (main_v50 : IVec S32 1) : IVec S_ 1 :=
  let main_c_19 : IVec S_ 1 := constantI S_ 1 1#1
  let main_v51 : IVec S_ 1 := (fun x v => Host.reduce IntOp.andi x v reducesTo_S32_S_d0 h_S_) main_v50 main_c_19
  let main_v52 : IVec S_ 1 := andi main_v47 main_v51
  let main_v53 : FVec F S_ .f32 := Host.absf main_arg12
  let main_cst_20 : FVec F S_ .f32 := constant S_ .f32 0x7F800000#32
  let main_v54 : IVec S_ 1 := cmpf .olt main_v53 main_cst_20
  let main_c_21 : IVec S_ 1 := constantI S_ 1 1#1
  let main_v55 : IVec S_ 1 := (fun x v => Host.reduce IntOp.andi x v reducesTo_S_S_d h_S_) main_v54 main_c_21
  let main_v56 : IVec S_ 1 := andi main_v52 main_v55
  let main_v57 : FVec F S1x32 .f32 := Host.absf main_arg13
  let main_cst_22 : FVec F S_ .f32 := constant S_ .f32 0x7F800000#32
  let main_v58 : FVec F S1x32 .f32 := broadcastInDim S1x32 ![] bcast_S_S1x32 main_cst_22
  let main_v59 : IVec S1x32 1 := cmpf .olt main_v57 main_v58
  let main_c_23 : IVec S_ 1 := constantI S_ 1 1#1
  let main_v60 : IVec S_ 1 := (fun x v => Host.reduce IntOp.andi x v reducesTo_S1x32_S_d0_1 h_S_) main_v59 main_c_23
  let main_v61 : IVec S_ 1 := andi main_v56 main_v60
  let main_v62 : FVec F S1 .f32 := Host.absf main_arg14
  let main_cst_24 : FVec F S_ .f32 := constant S_ .f32 0x7F800000#32
  let main_v63 : FVec F S1 .f32 := broadcastInDim S1 ![] bcast_S_S1 main_cst_24
  let main_v64 : IVec S1 1 := cmpf .olt main_v62 main_v63
  let main_c_25 : IVec S_ 1 := constantI S_ 1 1#1
  let main_v65 : IVec S_ 1 := (fun x v => Host.reduce IntOp.andi x v reducesTo_S1_S_d0 h_S_) main_v64 main_c_25
  let main_v66 : IVec S_ 1 := andi main_v61 main_v65
  let main_v67 : FVec F S1x32 .f32 := Host.absf main_arg15
  fn_part4 (F := F) main_v66 main_v67

def fn_part2 {F : FTy → Type} [FloatOps F] (main_arg9 : FVec F S32 .f32) (main_arg10 : FVec F S32x32 .f32) (main_arg11 : FVec F S32 .f32) (main_arg12 : FVec F S_ .f32) (main_arg13 : FVec F S1x32 .f32) (main_arg14 : FVec F S1 .f32) (main_arg15 : FVec F S1x32 .f32) (main_v32 : IVec S_ 1) (main_v33 : FVec F S32x64 .f32) : IVec S_ 1 :=
  let main_cst_12 : FVec F S_ .f32 := constant S_ .f32 0x7F800000#32
  let main_v34 : FVec F S32x64 .f32 := broadcastInDim S32x64 ![] bcast_S_S32x64 main_cst_12
  let main_v35 : IVec S32x64 1 := cmpf .olt main_v33 main_v34
  let main_c_13 : IVec S_ 1 := constantI S_ 1 1#1
  let main_v36 : IVec S_ 1 := (fun x v => Host.reduce IntOp.andi x v reducesTo_S32x64_S_d0_1 h_S_) main_v35 main_c_13
  let main_v37 : IVec S_ 1 := andi main_v32 main_v36
  let main_v38 : FVec F S32 .f32 := Host.absf main_arg9
  let main_cst_14 : FVec F S_ .f32 := constant S_ .f32 0x7F800000#32
  let main_v39 : FVec F S32 .f32 := broadcastInDim S32 ![] bcast_S_S32 main_cst_14
  let main_v40 : IVec S32 1 := cmpf .olt main_v38 main_v39
  let main_c_15 : IVec S_ 1 := constantI S_ 1 1#1
  let main_v41 : IVec S_ 1 := (fun x v => Host.reduce IntOp.andi x v reducesTo_S32_S_d0 h_S_) main_v40 main_c_15
  let main_v42 : IVec S_ 1 := andi main_v37 main_v41
  let main_v43 : FVec F S32x32 .f32 := Host.absf main_arg10
  let main_cst_16 : FVec F S_ .f32 := constant S_ .f32 0x7F800000#32
  let main_v44 : FVec F S32x32 .f32 := broadcastInDim S32x32 ![] bcast_S_S32x32 main_cst_16
  let main_v45 : IVec S32x32 1 := cmpf .olt main_v43 main_v44
  let main_c_17 : IVec S_ 1 := constantI S_ 1 1#1
  let main_v46 : IVec S_ 1 := (fun x v => Host.reduce IntOp.andi x v reducesTo_S32x32_S_d0_1 h_S_) main_v45 main_c_17
  let main_v47 : IVec S_ 1 := andi main_v42 main_v46
  let main_v48 : FVec F S32 .f32 := Host.absf main_arg11
  let main_cst_18 : FVec F S_ .f32 := constant S_ .f32 0x7F800000#32
  let main_v49 : FVec F S32 .f32 := broadcastInDim S32 ![] bcast_S_S32 main_cst_18
  let main_v50 : IVec S32 1 := cmpf .olt main_v48 main_v49
  fn_part3 (F := F) main_arg12 main_arg13 main_arg14 main_arg15 main_v47 main_v50

def fn_part1 {F : FTy → Type} [FloatOps F] (main_arg5 : FVec F S64x64 .f32) (main_arg6 : FVec F S64 .f32) (main_arg7 : FVec F S_ .f32) (main_arg8 : FVec F S32x64 .f32) (main_arg9 : FVec F S32 .f32) (main_arg10 : FVec F S32x32 .f32) (main_arg11 : FVec F S32 .f32) (main_arg12 : FVec F S_ .f32) (main_arg13 : FVec F S1x32 .f32) (main_arg14 : FVec F S1 .f32) (main_arg15 : FVec F S1x32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S_ .f32 := Host.absf main_arg7
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S32x64 .f32 := Host.absf main_arg8
  fn_part2 (F := F) main_arg9 main_arg10 main_arg11 main_arg12 main_arg13 main_arg14 main_arg15 main_v32 main_v33

def fn {F : FTy → Type} [FloatOps F] (main_arg0 : FVec F S50000x128 .f32) (main_arg1 : IVec S2x600000 32) (main_arg2 : FVec F S600000x1 .f32) (main_arg3 : FVec F S64x128 .f32) (main_arg4 : FVec F S64 .f32) (main_arg5 : FVec F S64x64 .f32) (main_arg6 : FVec F S64 .f32) (main_arg7 : FVec F S_ .f32) (main_arg8 : FVec F S32x64 .f32) (main_arg9 : FVec F S32 .f32) (main_arg10 : FVec F S32x32 .f32) (main_arg11 : FVec F S32 .f32) (main_arg12 : FVec F S_ .f32) (main_arg13 : FVec F S1x32 .f32) (main_arg14 : FVec F S1 .f32) (main_arg15 : FVec F S1x32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S600000x1 : Shape := ⟨2, ![600000, 1]⟩
abbrev S64x128 : Shape := ⟨2, ![64, 128]⟩
abbrev S64 : Shape := ⟨1, ![64]⟩
abbrev S64x64 : Shape := ⟨2, ![64, 64]⟩
abbrev S_ : Shape := ⟨0, ![]⟩
abbrev S32x64 : Shape := ⟨2, ![32, 64]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x600000 : Shape := ⟨2, ![1, 600000]⟩
abbrev S600000 : Shape := ⟨1, ![600000]⟩
abbrev S600000x128 : Shape := ⟨2, ![600000, 128]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S600000x64 : Shape := ⟨2, ![600000, 64]⟩
abbrev S64x32 : Shape := ⟨2, ![64, 32]⟩
abbrev S50000x32 : Shape := ⟨2, ![50000, 32]⟩
abbrev S5000x32 : Shape := ⟨2, ![5000, 32]⟩
abbrev S600000x32 : Shape := ⟨2, ![600000, 32]⟩
abbrev S50000 : Shape := ⟨1, ![50000]⟩
abbrev S50000x1 : Shape := ⟨2, ![50000, 1]⟩
abbrev S32x1 : Shape := ⟨2, ![32, 1]⟩
abbrev S1x1 : Shape := ⟨2, ![1, 1]⟩
abbrev S5000x1 : Shape := ⟨2, ![5000, 1]⟩

abbrev nBuf : Space → Nat
  | .hbm => 99
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S32x64, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S_, .f32⟩
  | .hbm, ⟨13, _⟩ => ⟨S1x32, .f32⟩
  | .hbm, ⟨14, _⟩ => ⟨S1, .f32⟩
  | .hbm, ⟨15, _⟩ => ⟨S1x32, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S600000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S_, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S128x64, .f32⟩
  | .hbm, ⟨40, _⟩ => ⟨S1x64, .f32⟩
  | .hbm, ⟨41, _⟩ => ⟨S64x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x64, .f32⟩
  | .hbm, ⟨53, _⟩ => ⟨S_, .f32⟩
  | .hbm, ⟨54, _⟩ => ⟨S50000x64, .f32⟩
  | .hbm, ⟨55, _⟩ => ⟨S600000x1, .i32⟩
  | .hbm, ⟨56, _⟩ => ⟨S50000x64, .f32⟩
  | .hbm, ⟨57, _⟩ => ⟨S_, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S64x32, .f32⟩
  | .hbm, ⟨63, _⟩ => ⟨S1x32, .f32⟩
  | .hbm, ⟨64, _⟩ => ⟨S32x32, .f32⟩
  | .hbm, ⟨65, _⟩ => ⟨S1x32, .f32⟩
  | .hbm, ⟨66, _⟩ => ⟨S50000x32, .f32⟩
  | .hbm, ⟨67, _⟩ => ⟨S600000x1, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x32, .f32⟩
  | .hbm, ⟨77, _⟩ => ⟨S600000x32, .f32⟩
  | .hbm, ⟨78, _⟩ => ⟨S600000x32, .f32⟩
  | .hbm, ⟨79, _⟩ => ⟨S_, .f32⟩
  | .hbm, ⟨80, _⟩ => ⟨S50000x32, .f32⟩
  | .hbm, ⟨81, _⟩ => ⟨S600000x1, .i32⟩
  | .hbm, ⟨82, _⟩ => ⟨S50000x32, .f32⟩
  | .hbm, ⟨83, _⟩ => ⟨S_, .f32⟩
  | .hbm, ⟨84, _⟩ => ⟨S600000, .f32⟩
  | .hbm, ⟨85, _⟩ => ⟨S_, .f32⟩
  | .hbm, ⟨86, _⟩ => ⟨S50000, .f32⟩
  | .hbm, ⟨87, _⟩ => ⟨S600000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x32, .f32⟩
  | .hbm, ⟨94, _⟩ => ⟨S50000x32, .f32⟩
  | .hbm, ⟨95, _⟩ => ⟨S32x1, .f32⟩
  | .hbm, ⟨96, _⟩ => ⟨S1x1, .f32⟩
  | .hbm, ⟨97, _⟩ => ⟨S32x1, .f32⟩
  | .hbm, ⟨98, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S32x1, .f32⟩
  | .local _ .vmem, ⟨21, _⟩ => ⟨S1x1, .f32⟩
  | .local _ .vmem, ⟨22, _⟩ => ⟨S32x1, .f32⟩
  | .local _ .vmem, ⟨23, _⟩ => ⟨S5000x1, .f32⟩
  | .local _ .vmem, ⟨24, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S64x128_S128x64_1_0 : S64x128.Transposes [1, 0] S128x64
  shapeCasts_S64_S1x64 : S64.ShapeCasts S1x64
  transposes_S64x64_S64x64_1_0 : S64x64.Transposes [1, 0] S64x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  transposes_S32x64_S64x32_1_0 : S32x64.Transposes [1, 0] S64x32
  shapeCasts_S32_S1x32 : S32.ShapeCasts S1x32
  transposes_S32x32_S32x32_1_0 : S32x32.Transposes [1, 0] S32x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S5000x32_S5000x32_0_0 : ∀ a, (![0, 0] : Fin 2 → Nat) a + S5000x32.size a ≤ S5000x32.size a
  h_S5000x32 : 0 < S5000x32.numel
  bcast_S600000x1_S600000x32_0_1 : S600000x1.BroadcastsInDim S600000x32 (![0, 1] : Fin 2 → Fin S600000x32.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  transposes_S1x32_S32x1_1_0 : S1x32.Transposes [1, 0] S32x1
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  scatter_S50000_S600000x1_S600000_n_0_0_1_wf : ScatterDims.WF S50000 S600000x1 S600000 [] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S50000x32.size a
  hwx2_1 : ∀ i : grid2.Coords, EltTy.bits .f32 = 32 ∨ (Rect.block (s := S50000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x1.size a ≤ S32x1.size a
  hwx2_4 : ∀ i : grid2.Coords, EltTy.bits .f32 = 32 ∨ (Rect.block (s := S32x1) S32x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S32x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x1 : Shape := ⟨2, ![600000, 1]⟩
abbrev S64x128 : Shape := ⟨2, ![64, 128]⟩
abbrev S64 : Shape := ⟨1, ![64]⟩
abbrev S64x64 : Shape := ⟨2, ![64, 64]⟩
abbrev S_ : Shape := ⟨0, ![]⟩
abbrev S32x64 : Shape := ⟨2, ![32, 64]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x600000 : Shape := ⟨2, ![1, 600000]⟩
abbrev S600000 : Shape := ⟨1, ![600000]⟩
abbrev S600000x128 : Shape := ⟨2, ![600000, 128]⟩
abbrev S128x64 : Shape := ⟨2, ![128, 64]⟩
abbrev S50000x64 : Shape := ⟨2, ![50000, 64]⟩
abbrev S1x64 : Shape := ⟨2, ![1, 64]⟩
abbrev S600000x64 : Shape := ⟨2, ![600000, 64]⟩
abbrev S64x32 : Shape := ⟨2, ![64, 32]⟩
abbrev S50000x32 : Shape := ⟨2, ![50000, 32]⟩
abbrev S600000x32 : Shape := ⟨2, ![600000, 32]⟩
abbrev S50000 : Shape := ⟨1, ![50000]⟩
abbrev S50000x1 : Shape := ⟨2, ![50000, 1]⟩
abbrev S32x1 : Shape := ⟨2, ![32, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S32x64, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S_, .f32⟩
  | .hbm, ⟨13, _⟩ => ⟨S1x32, .f32⟩
  | .hbm, ⟨14, _⟩ => ⟨S1, .f32⟩
  | .hbm, ⟨15, _⟩ => ⟨S1x32, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S600000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S_, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S128x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S64x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x64, .f32⟩
  | .hbm, ⟨61, _⟩ => ⟨S_, .f32⟩
  | .hbm, ⟨62, _⟩ => ⟨S50000x64, .f32⟩
  | .hbm, ⟨63, _⟩ => ⟨S600000x1, .i32⟩
  | .hbm, ⟨64, _⟩ => ⟨S50000x64, .f32⟩
  | .hbm, ⟨65, _⟩ => ⟨S_, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S64x32, .f32⟩
  | .hbm, ⟨71, _⟩ => ⟨S50000x32, .f32⟩
  | .hbm, ⟨72, _⟩ => ⟨S1x32, .f32⟩
  | .hbm, ⟨73, _⟩ => ⟨S50000x32, .f32⟩
  | .hbm, ⟨74, _⟩ => ⟨S50000x32, .f32⟩
  | .hbm, ⟨75, _⟩ => ⟨S32x32, .f32⟩
  | .hbm, ⟨76, _⟩ => ⟨S50000x32, .f32⟩
  | .hbm, ⟨77, _⟩ => ⟨S1x32, .f32⟩
  | .hbm, ⟨78, _⟩ => ⟨S50000x32, .f32⟩
  | .hbm, ⟨79, _⟩ => ⟨S50000x32, .f32⟩
  | .hbm, ⟨80, _⟩ => ⟨S_, .f32⟩
  | .hbm, ⟨81, _⟩ => ⟨S50000x32, .f32⟩
  | .hbm, ⟨82, _⟩ => ⟨S50000x32, .f32⟩
  | .hbm, ⟨83, _⟩ => ⟨S600000x1, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x32, .f32⟩
  | .hbm, ⟨93, _⟩ => ⟨S600000x32, .f32⟩
  | .hbm, ⟨94, _⟩ => ⟨S600000x32, .f32⟩
  | .hbm, ⟨95, _⟩ => ⟨S_, .f32⟩
  | .hbm, ⟨96, _⟩ => ⟨S50000x32, .f32⟩
  | .hbm, ⟨97, _⟩ => ⟨S600000x1, .i32⟩
  | .hbm, ⟨98, _⟩ => ⟨S50000x32, .f32⟩
  | .hbm, ⟨99, _⟩ => ⟨S_, .f32⟩
  | .hbm, ⟨100, _⟩ => ⟨S600000, .f32⟩
  | .hbm, ⟨101, _⟩ => ⟨S_, .f32⟩
  | .hbm, ⟨102, _⟩ => ⟨S50000, .f32⟩
  | .hbm, ⟨103, _⟩ => ⟨S600000x1, .i32⟩
  | .hbm, ⟨104, _⟩ => ⟨S50000, .f32⟩
  | .hbm, ⟨105, _⟩ => ⟨S_, .f32⟩
  | .hbm, ⟨106, _⟩ => ⟨S50000, .f32⟩
  | .hbm, ⟨107, _⟩ => ⟨S50000, .f32⟩
  | .hbm, ⟨108, _⟩ => ⟨S50000x1, .f32⟩
  | .hbm, ⟨109, _⟩ => ⟨S50000x32, .f32⟩
  | .hbm, ⟨110, _⟩ => ⟨S50000x32, .f32⟩
  | .hbm, ⟨111, _⟩ => ⟨S32x1, .f32⟩
  | .hbm, ⟨112, _⟩ => ⟨S50000x1, .f32⟩
  | .hbm, ⟨113, _⟩ => ⟨S1x1, .f32⟩
  | .hbm, ⟨114, _⟩ => ⟨S50000x1, .f32⟩
  | .hbm, ⟨115, _⟩ => ⟨S50000x1, .f32⟩
  | .hbm, ⟨116, _⟩ => ⟨S32x1, .f32⟩
  | .hbm, ⟨117, _⟩ => ⟨S50000x1, .f32⟩
  | .hbm, ⟨118, _⟩ => ⟨S50000x1, .f32⟩
  | .hbm, ⟨119, _⟩ => ⟨S_, .f32⟩
  | .hbm, ⟨120, _⟩ => ⟨S50000x1, .f32⟩
  | .hbm, ⟨121, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_2 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_c_6 : Ref sig .tc := ⟨.hbm, 84, rfl⟩
abbrev main_v56 : Ref sig .tc := ⟨.hbm, 85, rfl⟩
abbrev main_v57 : Ref sig .tc := ⟨.hbm, 86, rfl⟩
abbrev main_c_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_8 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_cst_10 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call2_cst : Ref sig .tc := ⟨.hbm, 119, rfl⟩
abbrev main_call2_v0 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  bcast_S_S50000x64 : S_.BroadcastsInDim S50000x64 (![] : Fin 0 → Fin S50000x64.rank)
  transposes_S32x64_S64x32_1_0 : S32x64.Transposes [1, 0] S64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S32x32_S32x32_1_0 : S32x32.Transposes [1, 0] S32x32
  bcast_S_S50000x32 : S_.BroadcastsInDim S50000x32 (![] : Fin 0 → Fin S50000x32.rank)
  bcast_S600000x1_S600000x32_0_1 : S600000x1.BroadcastsInDim S600000x32 (![0, 1] : Fin 2 → Fin S600000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x32_S50000x32_1_0_0_1_n_n_wf : DotDims.WF S50000x64 S64x32 S50000x32 [1] [0] [0] [1] [] []
  dot_S50000x32_S32x32_S50000x32_1_0_0_1_n_n_wf : DotDims.WF S50000x32 S32x32 S50000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  scatter_S50000_S600000x1_S600000_n_0_0_1_wf : ScatterDims.WF S50000 S600000x1 S600000 [] [0] [0] 1
  dot_S50000x32_S32x1_S50000x1_1_0_0_1_n_n_wf : DotDims.WF S50000x32 S32x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KernelRun.lean ====
/-
  The idealized kernel's run with its result named. The program is three pipelined calls among stretches of host
  operations; every weakly fair execution terminates, and on every core the result buffer ends at the contents the last
  call's write-backs leave (the fold of the program's segments from the launch memory, read at the result's buffer), the
  arguments as launched.
-/
import proofs.«103794_j39651138076979_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    segment boundary's contents at that buffer, and every argument array is as launched. -/
theorem run_result : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Hand

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibDenseLayers.lean ====
/-
  Two dense stages of a node-wise network, as functions of whole arrays read at an index, over the extended reals — stated
  for any extents.

  * `mlpAt x wa ba wb bb r j` is entry `(r, j)` of `relu ((x · wa + ba) · wb + bb)`: the inner product of row `r` of `x` with
    column `k` of `wa` plus the bias `ba k`, for every `k`; those multiplied into column `j` of `wb` and summed, plus the bias
    `bb j`; the maximum of that and zero.
  * `sageAt mean h wl bl wr r` is entry `(r, 0)` of `relu (mean · wl + bl + h · wr)`.

  Both the tiled kernels' bodies (a `tpu.matmul` into the zero accumulator per row block, the operands narrowed to bf16 on the
  way in: the identity on extended reals) and the reference's host operations (a `dot_general`, biases broadcast in two
  steps) read, at an index, as these sums. No law of the extended reals is needed: the summands and their order agree.
-/
import proofs.«103794_j39651138076979_1_alg».proof.Proof.LibRowOps

noncomputable section

open scoped BigOperators

namespace Idealize.ShloMosaic.DenseLayers

open Idealize.ShloMosaic Idealize.ShloMosaic.ValueIdx Idealize.ShloMosaic.RowOps

/-- Entry `(r, j)` of `relu ((x · wa + ba) · wb + bb)`, the biases rows `[1, ·]`. -/
def mlpAt {R A B D : Nat} (x : FVec Ideal (⟨2, ![R, A]⟩ : Shape) .f32) (wa : FVec Ideal (⟨2, ![A, B]⟩ : Shape) .f32)
    (ba : FVec Ideal (⟨2, ![1, B]⟩ : Shape) .f32) (wb : FVec Ideal (⟨2, ![B, D]⟩ : Shape) .f32)
    (bb : FVec Ideal (⟨2, ![1, D]⟩ : Shape) .f32) (r : Fin R) (j : Fin D) : Ideal .f32 :=
  max (∑ k : Fin B, (∑ l : Fin A, x (ix2 r l) * wa (ix2 l k) + ba (ix2 (0 : Fin 1) k)) * wb (ix2 k j) + bb (ix2 (0 : Fin 1) j))
    (Ideal.ofBits .f32 0x00000000#32)

/-- Entry `(r, 0)` of `relu (mean · wl + bl + h · wr)`, the bias one number `[1, 1]`. -/
def sageAt {R A : Nat} (mean h : FVec Ideal (⟨2, ![R, A]⟩ : Shape) .f32) (wl : FVec Ideal (⟨2, ![A, 1]⟩ : Shape) .f32)
    (bl : FVec Ideal (⟨2, ![1, 1]⟩ : Shape) .f32) (wr : FVec Ideal (⟨2, ![A, 1]⟩ : Shape) .f32) (r : Fin R) (j : Fin 1) : Ideal .f32 :=
  max ((∑ k : Fin A, mean (ix2 r k) * wl (ix2 k j) + bl (ix2 (0 : Fin 1) j)) + ∑ k : Fin A, h (ix2 r k) * wr (ix2 k j))
    (Ideal.ofBits .f32 0x00000000#32)

/-! ## The kernels' bodies -/

/-- The two-layer body on one row block: both products into the zero accumulator, the operands narrowed to bf16
    (nothing, on extended reals), each bias row broadcast down the block. -/
theorem mlp_body_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨2, ![1, B]⟩ : Shape) .f32) (wb : FVec Ideal (⟨2, ![B, D]⟩ : Shape) .f32)
    (bb : FVec Ideal (⟨2, ![1, D]⟩ : Shape) .f32)
    (hx : (⟨2, ![R, A]⟩ : Shape).ShapeCasts ⟨2, ![R, A]⟩) (hwa : (⟨2, ![A, B]⟩ : Shape).ShapeCasts ⟨2, ![A, B]⟩)
    (hba : (⟨2, ![1, B]⟩ : Shape).ShapeCasts ⟨2, ![1, B]⟩) (hwb : (⟨2, ![B, D]⟩ : Shape).ShapeCasts ⟨2, ![B, D]⟩)
    (hbb : (⟨2, ![1, D]⟩ : Shape).ShapeCasts ⟨2, ![1, D]⟩)
    (hc1 : (⟨2, ![1, B]⟩ : Shape).Broadcasts ⟨2, ![R, B]⟩) (hc2 : (⟨2, ![1, D]⟩ : Shape).Broadcasts ⟨2, ![R, D]⟩)
    (hlt : FTy.bf16.bits < FTy.f32.bits) (r : Fin R) (j : Fin D) :
    maximumf (addf (matmul d2 none
        (truncf .bf16 (addf (matmul d1 none (truncf .bf16 (shapeCast _ x hx) hlt) (truncf .bf16 (shapeCast _ wa hwa) hlt)
            (constant _ .f32 0x00000000#32)) (broadcastTo _ (shapeCast _ ba hba) hc1)) hlt)
        (truncf .bf16 (shapeCast _ wb hwb) hlt) (constant _ .f32 0x00000000#32)) (broadcastTo _ (shapeCast _ bb hbb) hc2))
      (broadcast _ (Scalar.ofBits (F := Ideal) .f32 0x00000000#32)) (ix2 r j)
      = mlpAt x wa ba wb bb r j := by
  rw [maximumf_apply, addf_apply, broadcast_apply, broadcastTo_1b_ab_apply, shapeCast_self, shapeCast_self, shapeCast_self,
    shapeCast_self, shapeCast_self]
  unfold matmul
  rw [matmul_zero_plain_apply d2 hd2]
  unfold mlpAt
  refine congrArg₂ max (congrArg₂ (· + ·) (Finset.sum_congr rfl fun k _ => ?_) rfl) rfl
  rw [truncf_apply, truncf_apply, addf_apply, broadcastTo_1b_ab_apply, matmul_zero_plain_apply d1 hd1]
  rfl

/-- The head's body on one row block: two products into the zero accumulator, the one bias broadcast down the block. -/
theorem sage_body_apply {R A : Nat}
    (d : DotDims (⟨2, ![R, A]⟩ : Shape) ⟨2, ![A, 1]⟩ ⟨2, ![R, 1]⟩) (hd : ∃ wf, d = plainDims wf)
    (mean h : FVec Ideal (⟨2, ![R, A]⟩ : Shape) .f32) (wl : FVec Ideal (⟨2, ![A, 1]⟩ : Shape) .f32)
    (bl : FVec Ideal (⟨2, ![1, 1]⟩ : Shape) .f32) (wr : FVec Ideal (⟨2, ![A, 1]⟩ : Shape) .f32)
    (hx : (⟨2, ![R, A]⟩ : Shape).ShapeCasts ⟨2, ![R, A]⟩) (hw : (⟨2, ![A, 1]⟩ : Shape).ShapeCasts ⟨2, ![A, 1]⟩)
    (hb : (⟨2, ![1, 1]⟩ : Shape).ShapeCasts ⟨2, ![1, 1]⟩) (hc : (⟨2, ![1, 1]⟩ : Shape).Broadcasts ⟨2, ![R, 1]⟩)
    (hlt : FTy.bf16.bits < FTy.f32.bits) (r : Fin R) (j : Fin 1) :
    maximumf (addf (addf (matmul d none (truncf .bf16 (shapeCast _ mean hx) hlt) (truncf .bf16 (shapeCast _ wl hw) hlt)
          (constant _ .f32 0x00000000#32)) (broadcastTo _ (shapeCast _ bl hb) hc))
        (matmul d none (truncf .bf16 (shapeCast _ h hx) hlt) (truncf .bf16 (shapeCast _ wr hw) hlt) (constant _ .f32 0x00000000#32)))
      (broadcast _ (Scalar.ofBits (F := Ideal) .f32 0x00000000#32)) (ix2 r j)
      = sageAt mean h wl bl wr r j := by
  rw [maximumf_apply, addf_apply, addf_apply, broadcast_apply, broadcastTo_1b_ab_apply, shapeCast_self, shapeCast_self, shapeCast_self,
    shapeCast_self, shapeCast_self]
  unfold matmul
  rw [matmul_zero_plain_apply d hd, matmul_zero_plain_apply d hd]
  rfl

/-! ## The reference's host operations -/

/-- A bias `[n]` made a row `[1, n]` and then broadcast to `[m, n]` reads, at `(p, q)`, the bias at `q` — which is what
    the bias reshaped to a row reads at `(0, q)`. -/
theorem bias_row_apply {n m : Nat} (v : FVec Ideal (⟨1, ![n]⟩ : Shape) .f32)
    (h1 : (⟨1, ![n]⟩ : Shape).BroadcastsInDim ⟨2, ![1, n]⟩ ![1]) (h2 : (⟨2, ![1, n]⟩ : Shape).BroadcastsInDim ⟨2, ![m, n]⟩ ![0, 1])
    (hs : (⟨1, ![n]⟩ : Shape).ShapeCasts ⟨2, ![1, n]⟩) (p : Fin m) (q : Fin n) :
    broadcastInDim (⟨2, ![m, n]⟩ : Shape) ![0, 1] h2 (broadcastInDim (⟨2, ![1, n]⟩ : Shape) ![1] h1 v) (ix2 p q)
      = shapeCast (⟨2, ![1, n]⟩ : Shape) v hs (ix2 (0 : Fin 1) q) := by
  rw [shapeCast_a_1a_apply]
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun a => by
    match a with
    | ⟨0, _⟩ =>
      show q.val = if n = 1 then 0 else q.val
      split
      · have := q.isLt; omega
      · rfl)

/-- The reference's two layers: two `dot_general`s, each bias `[n]` made a row and broadcast to every row. -/
theorem mlp_host_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨1, ![B]⟩ : Shape) .f32) (wb : FVec Ideal (⟨2, ![B, D]⟩ : Shape) .f32)
    (bb : FVec Ideal (⟨1, ![D]⟩ : Shape) .f32)
    (ha1 : (⟨1, ![B]⟩ : Shape).BroadcastsInDim ⟨2, ![1, B]⟩ ![1]) (ha2 : (⟨2, ![1, B]⟩ : Shape).BroadcastsInDim ⟨2, ![R, B]⟩ ![0, 1])
    (hb1 : (⟨1, ![D]⟩ : Shape).BroadcastsInDim ⟨2, ![1, D]⟩ ![1]) (hb2 : (⟨2, ![1, D]⟩ : Shape).BroadcastsInDim ⟨2, ![R, D]⟩ ![0, 1])
    (hz : (⟨0, ![]⟩ : Shape).BroadcastsInDim ⟨2, ![R, D]⟩ ![])
    (hsa : (⟨1, ![B]⟩ : Shape).ShapeCasts ⟨2, ![1, B]⟩) (hsb : (⟨1, ![D]⟩ : Shape).ShapeCasts ⟨2, ![1, D]⟩)
    (r : Fin R) (j : Fin D) :
    maximumf (addf (Host.dotGeneral d2 none
        (addf (Host.dotGeneral d1 none x wa) (broadcastInDim _ ![0, 1] ha2 (broadcastInDim (⟨2, ![1, B]⟩ : Shape) ![1] ha1 ba))) wb)
        (broadcastInDim _ ![0, 1] hb2 (broadcastInDim (⟨2, ![1, D]⟩ : Shape) ![1] hb1 bb)))
      (broadcastInDim _ ![] hz (constant (F := Ideal) ⟨0, ![]⟩ .f32 0x00000000#32)) (ix2 r j)
      = mlpAt x wa (shapeCast _ ba hsa) wb (shapeCast _ bb hsb) r j := by
  rw [maximumf_apply, addf_apply, broadcastInDim_scalar_apply, constant_apply, bias_row_apply bb hb1 hb2 hsb]
  unfold Host.dotGeneral
  rw [dotGeneral_plain_apply d2 hd2]
  unfold mlpAt
  refine congrArg₂ max (congrArg₂ (· + ·) (Finset.sum_congr rfl fun k _ => ?_) rfl) rfl
  rw [addf_apply, bias_row_apply ba ha1 ha2 hsa, dotGeneral_plain_apply d1 hd1]

/-- The reference's head: two `dot_general`s and the one bias, made `[1, 1]` and broadcast to every row. -/
theorem sage_host_apply {R A : Nat}
    (d : DotDims (⟨2, ![R, A]⟩ : Shape) ⟨2, ![A, 1]⟩ ⟨2, ![R, 1]⟩) (hd : ∃ wf, d = plainDims wf)
    (mean h : FVec Ideal (⟨2, ![R, A]⟩ : Shape) .f32) (wl : FVec Ideal (⟨2, ![A, 1]⟩ : Shape) .f32)
    (bl : FVec Ideal (⟨1, ![1]⟩ : Shape) .f32) (wr : FVec Ideal (⟨2, ![A, 1]⟩ : Shape) .f32)
    (h1 : (⟨1, ![1]⟩ : Shape).BroadcastsInDim ⟨2, ![1, 1]⟩ ![1]) (h2 : (⟨2, ![1, 1]⟩ : Shape).BroadcastsInDim ⟨2, ![R, 1]⟩ ![0, 1])
    (hz : (⟨0, ![]⟩ : Shape).BroadcastsInDim ⟨2, ![R, 1]⟩ ![]) (hs : (⟨1, ![1]⟩ : Shape).ShapeCasts ⟨2, ![1, 1]⟩)
    (r : Fin R) (j : Fin 1) :
    maximumf (addf (addf (Host.dotGeneral d none mean wl)
          (broadcastInDim _ ![0, 1] h2 (broadcastInDim (⟨2, ![1, 1]⟩ : Shape) ![1] h1 bl))) (Host.dotGeneral d none h wr))
      (broadcastInDim _ ![] hz (constant (F := Ideal) ⟨0, ![]⟩ .f32 0x00000000#32)) (ix2 r j)
      = sageAt mean h wl (shapeCast _ bl hs) wr r j := by
  rw [maximumf_apply, addf_apply, addf_apply, broadcastInDim_scalar_apply, constant_apply, bias_row_apply bl h1 h2 hs]
  unfold Host.dotGeneral
  rw [dotGeneral_plain_apply d hd, dotGeneral_plain_apply d hd]
  rfl

/-! ## The layers depend on one row of the activations -/

/-- Entry `(r, j)` of the two-layer map reads row `r` of the activations, the first weights and bias whole, column `j`
    of the second weights and entry `j` of the second bias: two instances that agree there are equal. -/
theorem mlpAt_congr {R R' A B D : Nat} {x : FVec Ideal (⟨2, ![R, A]⟩ : Shape) .f32} {x' : FVec Ideal (⟨2, ![R', A]⟩ : Shape) .f32}
    {wa wa' : FVec Ideal (⟨2, ![A, B]⟩ : Shape) .f32} {ba ba' : FVec Ideal (⟨2, ![1, B]⟩ : Shape) .f32}
    {wb wb' : FVec Ideal (⟨2, ![B, D]⟩ : Shape) .f32} {bb bb' : FVec Ideal (⟨2, ![1, D]⟩ : Shape) .f32}
    {r : Fin R} {r' : Fin R'} {j j' : Fin D}
    (hx : ∀ l, x (ix2 r l) = x' (ix2 r' l)) (hwa : ∀ l k, wa (ix2 l k) = wa' (ix2 l k))
    (hba : ∀ k, ba (ix2 (0 : Fin 1) k) = ba' (ix2 (0 : Fin 1) k)) (hwb : ∀ k, wb (ix2 k j) = wb' (ix2 k j'))
    (hbb : bb (ix2 (0 : Fin 1) j) = bb' (ix2 (0 : Fin 1) j')) :
    mlpAt x wa ba wb bb r j = mlpAt x' wa' ba' wb' bb' r' j' := by
  unfold mlpAt
  simp only [hx, hwa, hba, hwb, hbb]

/-- Entry `(r, j)` of the head reads row `r` of the two activation arrays and the weights and bias whole. -/
theorem sageAt_congr {R R' A : Nat} {mean h : FVec Ideal (⟨2, ![R, A]⟩ : Shape) .f32} {mean' h' : FVec Ideal (⟨2, ![R', A]⟩ : Shape) .f32}
    {wl wl' wr wr' : FVec Ideal (⟨2, ![A, 1]⟩ : Shape) .f32} {bl bl' : FVec Ideal (⟨2, ![1, 1]⟩ : Shape) .f32}
    {r : Fin R} {r' : Fin R'} {j j' : Fin 1}
    (hm : ∀ k, mean (ix2 r k) = mean' (ix2 r' k)) (hh : ∀ k, h (ix2 r k) = h' (ix2 r' k))
    (hwl : ∀ k, wl (ix2 k j) = wl' (ix2 k j')) (hbl : bl (ix2 (0 : Fin 1) j) = bl' (ix2 (0 : Fin 1) j'))
    (hwr : ∀ k, wr (ix2 k j) = wr' (ix2 k j')) :
    sageAt mean h wl bl wr r j = sageAt mean' h' wl' bl' wr' r' j' := by
  unfold sageAt
  simp only [hm, hh, hwl, hbl, hwr]

end Idealize.ShloMosaic.DenseLayers

end
-- ==== Proof.Region0.lean ====
/-
  What pipelined call 0 leaves in its output array, for any contents `V` of the core's buffers when the call is entered:
  the two-layer map `relu ((x · wa + ba) · wb + bb)` of the arrays the call's windows stage, index by index. The grid has ten
  points; point `t` stages rows `5000 t … 5000 t + 4999` of the activations and of the output and the weights and biases
  whole, so what it writes back is block `t` of the whole-array function, and the ten blocks cover the output.
-/
import proofs.«103794_j39651138076979_1_alg».proof.Proof.Gen.KernelIdeal.Frame
import proofs.«103794_j39651138076979_1_alg».proof.Proof.LibDenseLayers
import Idealize.ShloMosaic.Lib.Pipeline.Value

set_option maxRecDepth 16384

noncomputable section

open scoped BigOperators

namespace Cert.KernelIdeal.Hand

open Cert.KernelIdeal Cert.KernelIdeal.Gen Idealize.ShloMosaic.DenseLayers
open Idealize.ShloMosaic Idealize.ShloMosaic.TcCoe Idealize.ShloMosaic.ValueIdx Idealize.ShloMosaic.RowOps Idealize.SL.Sem
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The body's stored value at row `r`, column `j` of the block, from the blocks it loads. -/
theorem pay0_apply (x0 : Vec Ideal S5000x128 .f32) (x1 : Vec Ideal S128x64 .f32) (x2 : Vec Ideal S1x64 .f32) (x3 : Vec Ideal S64x64 .f32)
    (x4 : Vec Ideal S1x64 .f32) (r : Fin 5000) (j : Fin 64) :
    k0_pay1 (F := Ideal) x0 x1 x2 x3 x4 (ix2 r j) = mlpAt x0 x1 x2 x3 x4 r j := by
  unfold k0_pay1
  exact mlp_body_apply _ ⟨_, rfl⟩ _ ⟨_, rfl⟩ x0 x1 x2 x3 x4 _ _ _ _ _ _ _ _ r j

/-- The output array after the call, as one function of the arrays the windows stage. -/
def layer0 (c : Dev nD) : Buf (Elt Ideal) ((c : Thread nD τ).loc main_v23) := fun i =>
  mlpAt (V c main_v18 : S50000x128.Idx → Ideal .f32) (V c main_v19 : S128x64.Idx → Ideal .f32) (V c main_v20 : S1x64.Idx → Ideal .f32)
    (V c main_v21 : S64x64.Idx → Ideal .f32) (V c main_v22 : S1x64.Idx → Ideal .f32) (i 0) (i 1)

/-- The printed index maps over the grid: the activations' and the output's row block is the point, every other block
    index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the activations' block at point `t` is row `5000 t + p` of the array. -/
theorem iblk0_x (c : Dev nD) (t : Fin cfg0.N) (p : Fin 5000) (l : Fin 128) (i : Fin 50000) (hi : i.val = t.val * 5000 + p.val) :
    (iblk0 V c 0 t : S5000x128.Idx → Ideal .f32) (ix2 p l) = (V c main_v18 : S50000x128.Idx → Ideal .f32) (ix2 i l) := by
  obtain ⟨e0, e1, -⟩ := idx_facts0 t
  unfold iblk0
  rw [View.read_apply]
  show (V c main_v18 : S50000x128.Idx → Ideal .f32) (((cfg0.win 0).blk t).view.emb (ix2 p l)) = _
  refine congrArg _ (funext fun a => Fin.ext ?_)
  match a with
  | ⟨0, _⟩ => show win0_0.index t (0 : Fin 2) * 5000 + 1 * p.val = i.val; rw [e0, hi]; omega
  | ⟨1, _⟩ => show win0_0.index t (1 : Fin 2) * 128 + 1 * l.val = l.val; rw [e1]; omega

/-- The first weights' block at any point is the whole array. -/
theorem iblk0_wa (c : Dev nD) (t : Fin cfg0.N) (l : Fin 128) (q : Fin 64) :
    (iblk0 V c 1 t : S128x64.Idx → Ideal .f32) (ix2 l q) = (V c main_v19 : S128x64.Idx → Ideal .f32) (ix2 l q) := by
  obtain ⟨-, -, e0, e1, -⟩ := idx_facts0 t
  unfold iblk0
  rw [View.read_apply]
  show (V c main_v19 : S128x64.Idx → Ideal .f32) (((cfg0.win 1).blk t).view.emb (ix2 l q)) = _
  refine congrArg _ (funext fun a => Fin.ext ?_)
  match a with
  | ⟨0, _⟩ => show win0_1.index t (0 : Fin 2) * 128 + 1 * l.val = l.val; rw [e0]; omega
  | ⟨1, _⟩ => show win0_1.index t (1 : Fin 2) * 64 + 1 * q.val = q.val; rw [e1]; omega

/-- The first bias row's block at any point is the whole row. -/
theorem iblk0_ba (c : Dev nD) (t : Fin cfg0.N) (q : Fin 64) :
    (iblk0 V c 2 t : S1x64.Idx → Ideal .f32) (ix2 (0 : Fin 1) q) = (V c main_v20 : S1x64.Idx → Ideal .f32) (ix2 (0 : Fin 1) q) := by
  obtain ⟨-, -, -, -, e0, e1, -⟩ := idx_facts0 t
  unfold iblk0
  rw [View.read_apply]
  show (V c main_v20 : S1x64.Idx → Ideal .f32) (((cfg0.win 2).blk t).view.emb (ix2 (0 : Fin 1) q)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

/-- The second weights' block at any point is the whole array. -/
theorem iblk0_wb (c : Dev nD) (t : Fin cfg0.N) (l : Fin 64) (q : Fin 64) :
    (iblk0 V c 3 t : S64x64.Idx → Ideal .f32) (ix2 l q) = (V c main_v21 : S64x64.Idx → Ideal .f32) (ix2 l q) := by
  obtain ⟨-, -, -, -, -, -, e0, e1, -⟩ := idx_facts0 t
  unfold iblk0
  rw [View.read_apply]
  show (V c main_v21 : S64x64.Idx → Ideal .f32) (((cfg0.win 3).blk t).view.emb (ix2 l q)) = _
  refine congrArg _ (funext fun a => Fin.ext ?_)
  match a with
  | ⟨0, _⟩ => show win0_3.index t (0 : Fin 2) * 64 + 1 * l.val = l.val; rw [e0]; omega
  | ⟨1, _⟩ => show win0_3.index t (1 : Fin 2) * 64 + 1 * q.val = q.val; rw [e1]; omega

/-- The second bias row's block at any point is the whole row. -/
theorem iblk0_bb (c : Dev nD) (t : Fin cfg0.N) (q : Fin 64) :
    (iblk0 V c 4 t : S1x64.Idx → Ideal .f32) (ix2 (0 : Fin 1) q) = (V c main_v22 : S1x64.Idx → Ideal .f32) (ix2 (0 : Fin 1) q) := by
  obtain ⟨-, -, -, -, -, -, -, -, e0, e1, -⟩ := idx_facts0 t
  unfold iblk0
  rw [View.read_apply]
  show (V c main_v22 : S1x64.Idx → Ideal .f32) (((cfg0.win 4).blk t).view.emb (ix2 (0 : Fin 1) q)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- What point `t` writes back is block `t` of the whole-array function. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_off0]
  simp only [View.ld_unit_zero (S := S5000x128) zero_off0, View.ld_unit_zero (S := S128x64) zero_off0, View.ld_unit_zero (S := S1x64) zero_off0,
    View.ld_unit_zero (S := S64x64) zero_off0]
  funext y
  obtain ⟨p, q, rfl⟩ : ∃ (p : Fin 5000) (q : Fin 64), y = ix2 p q := ⟨y 0, y 1, eq_ix2 y⟩
  obtain ⟨-, -, -, -, -, -, -, -, -, -, e0, e1⟩ := idx_facts0 t
  have ht : t.val < 10 := by have h := t.isLt; have hN : cfg0.N = 10 := N_0; omega
  have hi : ((cfg0.win 5).blk t).view.emb (ix2 p q) = (ix2 (⟨t.val * 5000 + p.val, by have := p.isLt; omega⟩ : Fin 50000) q : S50000x64.Idx) :=
    funext fun a => Fin.ext (by
      match a with
      | ⟨0, _⟩ => show win0_5.index t (0 : Fin 2) * 5000 + 1 * p.val = t.val * 5000 + p.val; rw [e0]; omega
      | ⟨1, _⟩ => show win0_5.index t (1 : Fin 2) * 64 + 1 * q.val = q.val; rw [e1]; omega)
  show k0_pay1 (F := Ideal) (iblk0 V c 0 t) (iblk0 V c 1 t) (iblk0 V c 2 t) (iblk0 V c 3 t) (iblk0 V c 4 t) (ix2 p q)
    = layer0 V c (((cfg0.win 5).blk t).view.emb (ix2 p q))
  rw [hi, pay0_apply]
  show _ = mlpAt _ _ _ _ _ (⟨t.val * 5000 + p.val, _⟩ : Fin 50000) q
  exact mlpAt_congr (fun l => iblk0_x V c t p l _ rfl) (fun l q' => iblk0_wa V c t l q') (fun q' => iblk0_ba V c t q')
    (fun l => iblk0_wb V c t l q) (iblk0_bb V c t q)

/-- An index of the output array is in point `t`'s block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- Every index of the output array is in the block of the point its row falls in. -/
theorem cover0 (i : S50000x64.Idx) : ∃ t : Fin cfg0.N, (cfg0.win 5).flush t = true ∧ i ∈ ((cfg0.win 5).blk t).view.set := by
  have hN : cfg0.N = 10 := N_0
  have h0 : (i 0).val < 50000 := (i 0).isLt
  have h1 : (i 1).val < 64 := (i 1).isLt
  refine ⟨⟨(i 0).val / 5000, by rw [hN]; omega⟩, flush0_5 _, ?_⟩
  rw [mem_blk0]
  obtain ⟨-, -, -, -, -, -, -, -, -, -, e0, e1⟩ := idx_facts0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- The output array after the call is the two-layer map of the arrays as the call finds them. -/
theorem layer0_value (c : Dev nD) : (dat0 V c).arrAt 5 cfg0.N = layer0 V c :=
  (dat0 V c).arrAt_eq_of_cover 5 (layer0 V c) (fun t _ => flushed0_eq V c t) (cover0)

end Cert.KernelIdeal.Hand

end
-- ==== Proof.RefLayers.lean ====
/-
  The reference's three dense stages, read as layers. The reference is one straight line of host operations; between its
  gathers and scatters it applies, three times, a dense stage to a whole array: twice the two-layer map
  `relu ((x · wa + ba) · wb + bb)` (two `dot_general`s against transposed weights, the biases broadcast to every row, a
  maximum with zero) and once the head `relu (mean · wl + bl + h · wr)`. Index by index each is the layers' sum.
-/
import proofs.«103794_j39651138076979_1_alg».proof.Proof.Gen.ReferenceIdeal.Read
import proofs.«103794_j39651138076979_1_alg».proof.Proof.LibDenseLayers

noncomputable section

open scoped BigOperators

namespace Cert.ReferenceIdeal.RefValue

open Cert.ReferenceIdeal Cert.ReferenceIdeal.Read Idealize.ShloMosaic.DenseLayers
open Idealize.ShloMosaic Idealize.ShloMosaic.ValueIdx Idealize.ShloMosaic.RowOps

/-- The first layer's output: the two-layer map of the first aggregated activations, the transposed weights, and the biases
    as rows. -/
theorem layer0_eq (x0 : (⟨S50000x128, .f32⟩ : BufTy).Contents (Elt Ideal)) (x1 : (⟨S2x600000, .i32⟩ : BufTy).Contents (Elt Ideal)) (x3 : (⟨S64x128, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S_, .f32⟩ : BufTy).Contents (Elt Ideal))
    (hs : S64.ShapeCasts S1x64) :
    val_main_v29 (F := Ideal) x0 x1 x3 x4 x5 x6 x7 = fun i =>
      mlpAt (val_main_v18 (F := Ideal) x0 x1 x7) (val_main_v19 (F := Ideal) x3) (shapeCast S1x64 x4 hs) (val_main_v24 (F := Ideal) x5)
        (shapeCast S1x64 x6 hs) (i 0) (i 1) := by
  funext i
  obtain ⟨r, j, rfl⟩ : ∃ (r : Fin 50000) (j : Fin 64), i = ix2 r j := ⟨i 0, i 1, eq_ix2 i⟩
  unfold val_main_v29 val_main_v28 val_main_v25 val_main_v23 val_main_v20 val_main_v22 val_main_v21 val_main_v27 val_main_v26
    val_main_call0_v0 val_main_call0_cst
  exact mlp_host_apply _ ⟨_, rfl⟩ _ ⟨_, rfl⟩ _ _ _ _ _ _ _ _ _ _ _ _ r j

/-- The second layer's output: the same map of the second aggregated activations. -/
theorem layer1_eq (x0 : (⟨S50000x128, .f32⟩ : BufTy).Contents (Elt Ideal)) (x1 : (⟨S2x600000, .i32⟩ : BufTy).Contents (Elt Ideal)) (x3 : (⟨S64x128, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S_, .f32⟩ : BufTy).Contents (Elt Ideal)) (x8 : (⟨S32x64, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S_, .f32⟩ : BufTy).Contents (Elt Ideal))
    (hs : S32.ShapeCasts S1x32) :
    val_main_v54 (F := Ideal) x0 x1 x3 x4 x5 x6 x7 x8 x9 x10 x11 x12 = fun i =>
      mlpAt (val_main_v43 (F := Ideal) x0 x1 x3 x4 x5 x6 x7 x12) (val_main_v44 (F := Ideal) x8) (shapeCast S1x32 x9 hs) (val_main_v49 (F := Ideal) x10)
        (shapeCast S1x32 x11 hs) (i 0) (i 1) := by
  funext i
  obtain ⟨r, j, rfl⟩ : ∃ (r : Fin 50000) (j : Fin 32), i = ix2 r j := ⟨i 0, i 1, eq_ix2 i⟩
  unfold val_main_v54 val_main_v53 val_main_v50 val_main_v48 val_main_v45 val_main_v47 val_main_v46 val_main_v52 val_main_v51
    val_main_call1_v0 val_main_call1_cst
  exact mlp_host_apply _ ⟨_, rfl⟩ _ ⟨_, rfl⟩ _ _ _ _ _ _ _ _ _ _ _ _ r j

/-- The result: the head of the weighted neighbour mean and the second layer's output. -/
theorem layer2_eq (x0 : (⟨S50000x128, .f32⟩ : BufTy).Contents (Elt Ideal)) (x1 : (⟨S2x600000, .i32⟩ : BufTy).Contents (Elt Ideal)) (x2 : (⟨S600000x1, .f32⟩ : BufTy).Contents (Elt Ideal)) (x3 : (⟨S64x128, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S_, .f32⟩ : BufTy).Contents (Elt Ideal)) (x8 : (⟨S32x64, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S_, .f32⟩ : BufTy).Contents (Elt Ideal)) (x13 : (⟨S1x32, .f32⟩ : BufTy).Contents (Elt Ideal)) (x14 : (⟨S1, .f32⟩ : BufTy).Contents (Elt Ideal)) (x15 : (⟨S1x32, .f32⟩ : BufTy).Contents (Elt Ideal))
    (hs : S1.ShapeCasts S1x1) :
    val_main_v85 (F := Ideal) x0 x1 x2 x3 x4 x5 x6 x7 x8 x9 x10 x11 x12 x13 x14 x15 = fun i =>
      sageAt (val_main_v76 (F := Ideal) x0 x1 x2 x3 x4 x5 x6 x7 x8 x9 x10 x11 x12) (val_main_v54 (F := Ideal) x0 x1 x3 x4 x5 x6 x7 x8 x9 x10 x11 x12) (val_main_v77 (F := Ideal) x13)
        (shapeCast S1x1 x14 hs) (val_main_v82 (F := Ideal) x15) (i 0) (i 1) := by
  funext i
  obtain ⟨r, j, rfl⟩ : ∃ (r : Fin 50000) (j : Fin 1), i = ix2 r j := ⟨i 0, i 1, eq_ix2 i⟩
  unfold val_main_v85 val_main_v84 val_main_v81 val_main_v83 val_main_v78 val_main_v80 val_main_v79 val_main_call2_v0 val_main_call2_cst
  exact sage_host_apply _ ⟨_, rfl⟩ _ _ _ _ _ _ _ _ _ r j

end Cert.ReferenceIdeal.RefValue

end
-- ==== Proof.Host0.lean ====
/-
  The idealized kernel's buffers up to the end of its first pipelined call, as functions of the argument arrays. The
  host operations before the call compute the first aggregated activations (a gather of node rows by source, a
  scatter-add by destination, the self term), the transposed weights and the biases as rows: the very operations the
  reference applies, so each buffer is the reference's stage of the same arguments. The call then leaves the first layer's
  output, which is the reference's first layer of those stages.
-/
import proofs.«103794_j39651138076979_1_alg».proof.Proof.Gen.KernelIdeal.Frame
import proofs.«103794_j39651138076979_1_alg».proof.Proof.Gen.ReferenceIdeal.Read
import proofs.«103794_j39651138076979_1_alg».proof.Proof.Region0
import proofs.«103794_j39651138076979_1_alg».proof.Proof.RefLayers

set_option maxRecDepth 16384

noncomputable section

namespace Cert.KernelIdeal.Hand

open Cert.KernelIdeal Cert.KernelIdeal.Gen Idealize.ShloMosaic.DenseLayers Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first stretch of host operations -/

/-- The first aggregated activations. -/
theorem w1_v18 (c : Dev nD) : W1 m ρ c (Proc.devRef .tc main_v18) = val_main_v18 (F := Ideal) (m ((c : Thread nD τ).loc main_arg0)) (m ((c : Thread nD τ).loc main_arg1)) (m ((c : Thread nD τ).loc main_arg7)) := by
  show StableHlo.after hostOps0 (W0 m ρ c) (Proc.devRef .tc main_v18) = _
  after_results_simp
  rfl
/-- The first weights, transposed. -/
theorem w1_v19 (c : Dev nD) : W1 m ρ c (Proc.devRef .tc main_v19) = val_main_v19 (F := Ideal) (m ((c : Thread nD τ).loc main_arg3)) := by
  show StableHlo.after hostOps0 (W0 m ρ c) (Proc.devRef .tc main_v19) = _
  after_results_simp
  rfl
/-- The first bias as a row. -/
theorem w1_v20 (c : Dev nD) : W1 m ρ c (Proc.devRef .tc main_v20) = shapeCast S1x64 (m ((c : Thread nD τ).loc main_arg4)) shapeCasts_S64_S1x64 := by
  show StableHlo.after hostOps0 (W0 m ρ c) (Proc.devRef .tc main_v20) = _
  after_results_simp
  rfl
/-- The second weights, transposed. -/
theorem w1_v21 (c : Dev nD) : W1 m ρ c (Proc.devRef .tc main_v21) = val_main_v24 (F := Ideal) (m ((c : Thread nD τ).loc main_arg5)) := by
  show StableHlo.after hostOps0 (W0 m ρ c) (Proc.devRef .tc main_v21) = _
  after_results_simp
  rfl
/-- The second bias as a row. -/
theorem w1_v22 (c : Dev nD) : W1 m ρ c (Proc.devRef .tc main_v22) = shapeCast S1x64 (m ((c : Thread nD τ).loc main_arg6)) shapeCasts_S64_S1x64 := by
  show StableHlo.after hostOps0 (W0 m ρ c) (Proc.devRef .tc main_v22) = _
  after_results_simp
  rfl
/-- The edges' sources. -/
theorem w1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl
/-- The edges' destinations. -/
theorem w1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl
/-- The edge weights as a vector. -/
theorem w1_v4 (c : Dev nD) : W1 m ρ c (Proc.devRef .tc main_v4) = val_main_v4 (F := Ideal) (m ((c : Thread nD τ).loc main_arg2)) := by
  show StableHlo.after hostOps0 (W0 m ρ c) (Proc.devRef .tc main_v4) = _
  after_results_simp
  rfl
/-- Argument 8 is not written. -/
theorem w1_arg8 (c : Dev nD) : W1 m ρ c (Proc.devRef .tc main_arg8) = m ((c : Thread nD τ).loc main_arg8) := by
  show StableHlo.after hostOps0 (W0 m ρ c) (Proc.devRef .tc main_arg8) = _
  after_results_simp
/-- Argument 9 is not written. -/
theorem w1_arg9 (c : Dev nD) : W1 m ρ c (Proc.devRef .tc main_arg9) = m ((c : Thread nD τ).loc main_arg9) := by
  show StableHlo.after hostOps0 (W0 m ρ c) (Proc.devRef .tc main_arg9) = _
  after_results_simp
/-- Argument 10 is not written. -/
theorem w1_arg10 (c : Dev nD) : W1 m ρ c (Proc.devRef .tc main_arg10) = m ((c : Thread nD τ).loc main_arg10) := by
  show StableHlo.after hostOps0 (W0 m ρ c) (Proc.devRef .tc main_arg10) = _
  after_results_simp
/-- Argument 11 is not written. -/
theorem w1_arg11 (c : Dev nD) : W1 m ρ c (Proc.devRef .tc main_arg11) = m ((c : Thread nD τ).loc main_arg11) := by
  show StableHlo.after hostOps0 (W0 m ρ c) (Proc.devRef .tc main_arg11) = _
  after_results_simp
/-- Argument 12 is not written. -/
theorem w1_arg12 (c : Dev nD) : W1 m ρ c (Proc.devRef .tc main_arg12) = m ((c : Thread nD τ).loc main_arg12) := by
  show StableHlo.after hostOps0 (W0 m ρ c) (Proc.devRef .tc main_arg12) = _
  after_results_simp
/-- Argument 13 is not written. -/
theorem w1_arg13 (c : Dev nD) : W1 m ρ c (Proc.devRef .tc main_arg13) = m ((c : Thread nD τ).loc main_arg13) := by
  show StableHlo.after hostOps0 (W0 m ρ c) (Proc.devRef .tc main_arg13) = _
  after_results_simp
/-- Argument 14 is not written. -/
theorem w1_arg14 (c : Dev nD) : W1 m ρ c (Proc.devRef .tc main_arg14) = m ((c : Thread nD τ).loc main_arg14) := by
  show StableHlo.after hostOps0 (W0 m ρ c) (Proc.devRef .tc main_arg14) = _
  after_results_simp
/-- Argument 15 is not written. -/
theorem w1_arg15 (c : Dev nD) : W1 m ρ c (Proc.devRef .tc main_arg15) = m ((c : Thread nD τ).loc main_arg15) := by
  show StableHlo.after hostOps0 (W0 m ρ c) (Proc.devRef .tc main_arg15) = _
  after_results_simp

/-! ## After the first pipelined call -/

theorem w2_v1 (c : Dev nD) : W2 m ρ c (Proc.devRef .tc main_v1) = val_main_v1 (F := Ideal) (m ((c : Thread nD τ).loc main_arg1)) :=
  (W2_of_ne m ρ c main_v1 (by decide)).trans (w1_v1 m ρ c)
theorem w2_v3 (c : Dev nD) : W2 m ρ c (Proc.devRef .tc main_v3) = val_main_v3 (F := Ideal) (m ((c : Thread nD τ).loc main_arg1)) :=
  (W2_of_ne m ρ c main_v3 (by decide)).trans (w1_v3 m ρ c)
theorem w2_v4 (c : Dev nD) : W2 m ρ c (Proc.devRef .tc main_v4) = val_main_v4 (F := Ideal) (m ((c : Thread nD τ).loc main_arg2)) :=
  (W2_of_ne m ρ c main_v4 (by decide)).trans (w1_v4 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg9 (c : Dev nD) : W2 m ρ c (Proc.devRef .tc main_arg9) = m ((c : Thread nD τ).loc main_arg9) :=
  (W2_of_ne m ρ c main_arg9 (by decide)).trans (w1_arg9 m ρ c)
theorem w2_arg10 (c : Dev nD) : W2 m ρ c (Proc.devRef .tc main_arg10) = m ((c : Thread nD τ).loc main_arg10) :=
  (W2_of_ne m ρ c main_arg10 (by decide)).trans (w1_arg10 m ρ c)
theorem w2_arg11 (c : Dev nD) : W2 m ρ c (Proc.devRef .tc main_arg11) = m ((c : Thread nD τ).loc main_arg11) :=
  (W2_of_ne m ρ c main_arg11 (by decide)).trans (w1_arg11 m ρ c)
theorem w2_arg12 (c : Dev nD) : W2 m ρ c (Proc.devRef .tc main_arg12) = m ((c : Thread nD τ).loc main_arg12) :=
  (W2_of_ne m ρ c main_arg12 (by decide)).trans (w1_arg12 m ρ c)
theorem w2_arg13 (c : Dev nD) : W2 m ρ c (Proc.devRef .tc main_arg13) = m ((c : Thread nD τ).loc main_arg13) :=
  (W2_of_ne m ρ c main_arg13 (by decide)).trans (w1_arg13 m ρ c)
theorem w2_arg14 (c : Dev nD) : W2 m ρ c (Proc.devRef .tc main_arg14) = m ((c : Thread nD τ).loc main_arg14) :=
  (W2_of_ne m ρ c main_arg14 (by decide)).trans (w1_arg14 m ρ c)
theorem w2_arg15 (c : Dev nD) : W2 m ρ c (Proc.devRef .tc main_arg15) = m ((c : Thread nD τ).loc main_arg15) :=
  (W2_of_ne m ρ c main_arg15 (by decide)).trans (w1_arg15 m ρ c)

/-- The first layer's output is the reference's first layer of the same arguments. -/
theorem w2_v23 (c : Dev nD) : W2 m ρ c (Proc.devRef .tc main_v23) = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 5).trans ((layer0_value (V1 m ρ) c).trans ?_)
  unfold layer0
  rw [show V1 m ρ c main_v18 = _ from w1_v18 m ρ c, show V1 m ρ c main_v19 = _ from w1_v19 m ρ c, show V1 m ρ c main_v20 = _ from w1_v20 m ρ c,
    show V1 m ρ c main_v21 = _ from w1_v21 m ρ c, show V1 m ρ c main_v22 = _ from w1_v22 m ρ c]
  exact (Cert.ReferenceIdeal.RefValue.layer0_eq _ _ _ _ _ _ _ shapeCasts_S64_S1x64).symm

end Cert.KernelIdeal.Hand

end
-- ==== Proof.Region1.lean ====
/-
  What pipelined call 1 leaves in its output array, for any contents `V` of the core's buffers when the call is entered:
  the two-layer map `relu ((x · wa + ba) · wb + bb)` of the arrays the call's windows stage, index by index. The grid has ten
  points; point `t` stages rows `5000 t … 5000 t + 4999` of the activations and of the output and the weights and biases
  whole, so what it writes back is block `t` of the whole-array function, and the ten blocks cover the output.
-/
import proofs.«103794_j39651138076979_1_alg».proof.Proof.Gen.KernelIdeal.Frame
import proofs.«103794_j39651138076979_1_alg».proof.Proof.LibDenseLayers
import Idealize.ShloMosaic.Lib.Pipeline.Value

set_option maxRecDepth 16384

noncomputable section

open scoped BigOperators

namespace Cert.KernelIdeal.Hand

open Cert.KernelIdeal Cert.KernelIdeal.Gen Idealize.ShloMosaic.DenseLayers
open Idealize.ShloMosaic Idealize.ShloMosaic.TcCoe Idealize.ShloMosaic.ValueIdx Idealize.ShloMosaic.RowOps Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The body's stored value at row `r`, column `j` of the block, from the blocks it loads. -/
theorem pay1_apply (x0 : Vec Ideal S5000x64 .f32) (x1 : Vec Ideal S64x32 .f32) (x2 : Vec Ideal S1x32 .f32) (x3 : Vec Ideal S32x32 .f32)
    (x4 : Vec Ideal S1x32 .f32) (r : Fin 5000) (j : Fin 32) :
    k1_pay1 (F := Ideal) x0 x1 x2 x3 x4 (ix2 r j) = mlpAt x0 x1 x2 x3 x4 r j := by
  unfold k1_pay1
  exact mlp_body_apply _ ⟨_, rfl⟩ _ ⟨_, rfl⟩ x0 x1 x2 x3 x4 _ _ _ _ _ _ _ _ r j

/-- The output array after the call, as one function of the arrays the windows stage. -/
def layer1 (c : Dev nD) : Buf (Elt Ideal) ((c : Thread nD τ).loc main_v42) := fun i =>
  mlpAt (V c main_v37 : S50000x64.Idx → Ideal .f32) (V c main_v38 : S64x32.Idx → Ideal .f32) (V c main_v39 : S1x32.Idx → Ideal .f32)
    (V c main_v40 : S32x32.Idx → Ideal .f32) (V c main_v41 : S1x32.Idx → Ideal .f32) (i 0) (i 1)

/-- The printed index maps over the grid: the activations' and the output's row block is the point, every other block
    index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the activations' block at point `t` is row `5000 t + p` of the array. -/
theorem iblk1_x (c : Dev nD) (t : Fin cfg1.N) (p : Fin 5000) (l : Fin 64) (i : Fin 50000) (hi : i.val = t.val * 5000 + p.val) :
    (iblk1 V c 0 t : S5000x64.Idx → Ideal .f32) (ix2 p l) = (V c main_v37 : S50000x64.Idx → Ideal .f32) (ix2 i l) := by
  obtain ⟨e0, e1, -⟩ := idx_facts1 t
  unfold iblk1
  rw [View.read_apply]
  show (V c main_v37 : S50000x64.Idx → Ideal .f32) (((cfg1.win 0).blk t).view.emb (ix2 p l)) = _
  refine congrArg _ (funext fun a => Fin.ext ?_)
  match a with
  | ⟨0, _⟩ => show win1_0.index t (0 : Fin 2) * 5000 + 1 * p.val = i.val; rw [e0, hi]; omega
  | ⟨1, _⟩ => show win1_0.index t (1 : Fin 2) * 64 + 1 * l.val = l.val; rw [e1]; omega

/-- The first weights' block at any point is the whole array. -/
theorem iblk1_wa (c : Dev nD) (t : Fin cfg1.N) (l : Fin 64) (q : Fin 32) :
    (iblk1 V c 1 t : S64x32.Idx → Ideal .f32) (ix2 l q) = (V c main_v38 : S64x32.Idx → Ideal .f32) (ix2 l q) := by
  obtain ⟨-, -, e0, e1, -⟩ := idx_facts1 t
  unfold iblk1
  rw [View.read_apply]
  show (V c main_v38 : S64x32.Idx → Ideal .f32) (((cfg1.win 1).blk t).view.emb (ix2 l q)) = _
  refine congrArg _ (funext fun a => Fin.ext ?_)
  match a with
  | ⟨0, _⟩ => show win1_1.index t (0 : Fin 2) * 64 + 1 * l.val = l.val; rw [e0]; omega
  | ⟨1, _⟩ => show win1_1.index t (1 : Fin 2) * 32 + 1 * q.val = q.val; rw [e1]; omega

/-- The first bias row's block at any point is the whole row. -/
theorem iblk1_ba (c : Dev nD) (t : Fin cfg1.N) (q : Fin 32) :
    (iblk1 V c 2 t : S1x32.Idx → Ideal .f32) (ix2 (0 : Fin 1) q) = (V c main_v39 : S1x32.Idx → Ideal .f32) (ix2 (0 : Fin 1) q) := by
  obtain ⟨-, -, -, -, e0, e1, -⟩ := idx_facts1 t
  unfold iblk1
  rw [View.read_apply]
  show (V c main_v39 : S1x32.Idx → Ideal .f32) (((cfg1.win 2).blk t).view.emb (ix2 (0 : Fin 1) q)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 32 + 1 * q.val = q.val; rw [e1]; omega

/-- The second weights' block at any point is the whole array. -/
theorem iblk1_wb (c : Dev nD) (t : Fin cfg1.N) (l : Fin 32) (q : Fin 32) :
    (iblk1 V c 3 t : S32x32.Idx → Ideal .f32) (ix2 l q) = (V c main_v40 : S32x32.Idx → Ideal .f32) (ix2 l q) := by
  obtain ⟨-, -, -, -, -, -, e0, e1, -⟩ := idx_facts1 t
  unfold iblk1
  rw [View.read_apply]
  show (V c main_v40 : S32x32.Idx → Ideal .f32) (((cfg1.win 3).blk t).view.emb (ix2 l q)) = _
  refine congrArg _ (funext fun a => Fin.ext ?_)
  match a with
  | ⟨0, _⟩ => show win1_3.index t (0 : Fin 2) * 32 + 1 * l.val = l.val; rw [e0]; omega
  | ⟨1, _⟩ => show win1_3.index t (1 : Fin 2) * 32 + 1 * q.val = q.val; rw [e1]; omega

/-- The second bias row's block at any point is the whole row. -/
theorem iblk1_bb (c : Dev nD) (t : Fin cfg1.N) (q : Fin 32) :
    (iblk1 V c 4 t : S1x32.Idx → Ideal .f32) (ix2 (0 : Fin 1) q) = (V c main_v41 : S1x32.Idx → Ideal .f32) (ix2 (0 : Fin 1) q) := by
  obtain ⟨-, -, -, -, -, -, -, -, e0, e1, -⟩ := idx_facts1 t
  unfold iblk1
  rw [View.read_apply]
  show (V c main_v41 : S1x32.Idx → Ideal .f32) (((cfg1.win 4).blk t).view.emb (ix2 (0 : Fin 1) q)) = _
  refine congrArg _ (funext fun a => Fin.ext ?_)
  match a with
  | ⟨0, _⟩ => show win1_4.index t (0 : Fin 2) * 1 + 1 * 0 = 0; rw [e0]
  | ⟨1, _⟩ => show win1_4.index t (1 : Fin 2) * 32 + 1 * q.val = q.val; rw [e1]; omega

/-- What point `t` writes back is block `t` of the whole-array function. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_off1]
  simp only [View.ld_unit_zero (S := S5000x64) zero_off1, View.ld_unit_zero (S := S64x32) zero_off1, View.ld_unit_zero (S := S1x32) zero_off1,
    View.ld_unit_zero (S := S32x32) zero_off1]
  funext y
  obtain ⟨p, q, rfl⟩ : ∃ (p : Fin 5000) (q : Fin 32), y = ix2 p q := ⟨y 0, y 1, eq_ix2 y⟩
  obtain ⟨-, -, -, -, -, -, -, -, -, -, e0, e1⟩ := idx_facts1 t
  have ht : t.val < 10 := by have h := t.isLt; have hN : cfg1.N = 10 := N_1; omega
  have hi : ((cfg1.win 5).blk t).view.emb (ix2 p q) = (ix2 (⟨t.val * 5000 + p.val, by have := p.isLt; omega⟩ : Fin 50000) q : S50000x32.Idx) :=
    funext fun a => Fin.ext (by
      match a with
      | ⟨0, _⟩ => show win1_5.index t (0 : Fin 2) * 5000 + 1 * p.val = t.val * 5000 + p.val; rw [e0]; omega
      | ⟨1, _⟩ => show win1_5.index t (1 : Fin 2) * 32 + 1 * q.val = q.val; rw [e1]; omega)
  show k1_pay1 (F := Ideal) (iblk1 V c 0 t) (iblk1 V c 1 t) (iblk1 V c 2 t) (iblk1 V c 3 t) (iblk1 V c 4 t) (ix2 p q)
    = layer1 V c (((cfg1.win 5).blk t).view.emb (ix2 p q))
  rw [hi, pay1_apply]
  show _ = mlpAt _ _ _ _ _ (⟨t.val * 5000 + p.val, _⟩ : Fin 50000) q
  exact mlpAt_congr (fun l => iblk1_x V c t p l _ rfl) (fun l q' => iblk1_wa V c t l q') (fun q' => iblk1_ba V c t q')
    (fun l => iblk1_wb V c t l q) (iblk1_bb V c t q)

/-- An index of the output array is in point `t`'s block iff each coordinate is in the block's range on its axis. -/
theorem mem_blk1 (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v42).slice (win1_5.rect t)).set ↔ _
  rw [View.set_slice_whole, Rect.mem_set_unit]
  exact Iff.rfl

/-- Every index of the output array is in the block of the point its row falls in. -/
theorem cover1 (i : S50000x32.Idx) : ∃ t : Fin cfg1.N, (cfg1.win 5).flush t = true ∧ i ∈ ((cfg1.win 5).blk t).view.set := by
  have hN : cfg1.N = 10 := N_1
  have h0 : (i 0).val < 50000 := (i 0).isLt
  have h1 : (i 1).val < 32 := (i 1).isLt
  refine ⟨⟨(i 0).val / 5000, by rw [hN]; omega⟩, flush1_5 _, ?_⟩
  rw [mem_blk1]
  obtain ⟨-, -, -, -, -, -, -, -, -, -, e0, e1⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 32 ≤ (i 1).val ∧ (i 1).val < win1_5.index _ (1 : Fin 2) * 32 + 32
    rw [e1]; omega

/-- The output array after the call is the two-layer map of the arrays as the call finds them. -/
theorem layer1_value (c : Dev nD) : (dat1 V c).arrAt 5 cfg1.N = layer1 V c :=
  (dat1 V c).arrAt_eq_of_cover 5 (layer1 V c) (fun t _ => flushed1_eq V c t) (cover1)

end Cert.KernelIdeal.Hand

end
-- ==== Proof.Host1.lean ====
/-
  The idealized kernel's buffers from the end of its first pipelined call to the end of its second. The host operations
  between them aggregate the first layer's output over the edges (gather by source, scatter-add by destination, the self
  term) and lay out the second layer's weights and biases: the reference's operations on the reference's first layer, which
  the kernel's first call was shown to leave. The second call leaves the reference's second layer.
-/
import proofs.«103794_j39651138076979_1_alg».proof.Proof.Host0
import proofs.«103794_j39651138076979_1_alg».proof.Proof.Region1

set_option maxRecDepth 16384

noncomputable section

namespace Cert.KernelIdeal.Hand

open Cert.KernelIdeal Cert.KernelIdeal.Gen Idealize.ShloMosaic.DenseLayers Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the second stretch of host operations -/

/-- The second aggregated activations. -/
theorem w3_v37 (c : Dev nD) : W3 m ρ c (Proc.devRef .tc main_v37) = val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) := by
  show StableHlo.after hostOps1 (W2 m ρ c) (Proc.devRef .tc main_v37) = _
  after_results_simp
  rw [w2_v23 m ρ c, w2_v1 m ρ c, w2_v3 m ρ c, w2_arg12 m ρ c]
  rfl
/-- The third weights, transposed. -/
theorem w3_v38 (c : Dev nD) : W3 m ρ c (Proc.devRef .tc main_v38) = val_main_v44 (F := Ideal) (m ((c : Thread nD τ).loc main_arg8)) := by
  show StableHlo.after hostOps1 (W2 m ρ c) (Proc.devRef .tc main_v38) = _
  after_results_simp
  rw [w2_arg8 m ρ c]
  rfl
/-- The third bias as a row. -/
theorem w3_v39 (c : Dev nD) : W3 m ρ c (Proc.devRef .tc main_v39) = shapeCast S1x32 (m ((c : Thread nD τ).loc main_arg9)) shapeCasts_S32_S1x32 := by
  show StableHlo.after hostOps1 (W2 m ρ c) (Proc.devRef .tc main_v39) = _
  after_results_simp
  rw [w2_arg9 m ρ c]
  rfl
/-- The fourth weights, transposed. -/
theorem w3_v40 (c : Dev nD) : W3 m ρ c (Proc.devRef .tc main_v40) = val_main_v49 (F := Ideal) (m ((c : Thread nD τ).loc main_arg10)) := by
  show StableHlo.after hostOps1 (W2 m ρ c) (Proc.devRef .tc main_v40) = _
  after_results_simp
  rw [w2_arg10 m ρ c]
  rfl
/-- The fourth bias as a row. -/
theorem w3_v41 (c : Dev nD) : W3 m ρ c (Proc.devRef .tc main_v41) = shapeCast S1x32 (m ((c : Thread nD τ).loc main_arg11)) shapeCasts_S32_S1x32 := by
  show StableHlo.after hostOps1 (W2 m ρ c) (Proc.devRef .tc main_v41) = _
  after_results_simp
  rw [w2_arg11 m ρ c]
  rfl
/-- Not written by this stretch. -/
theorem w3_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_v1 m ρ c
/-- Not written by this stretch. -/
theorem w3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_v3 m ρ c
/-- Not written by this stretch. -/
theorem w3_v4 (c : Dev nD) : W3 m ρ c (Proc.devRef .tc main_v4) = val_main_v4 (F := Ideal) (m ((c : Thread nD τ).loc main_arg2)) := by
  show StableHlo.after hostOps1 (W2 m ρ c) (Proc.devRef .tc main_v4) = _
  after_results_simp
  exact w2_v4 m ρ c
/-- Not written by this stretch. -/
theorem w3_arg13 (c : Dev nD) : W3 m ρ c (Proc.devRef .tc main_arg13) = m ((c : Thread nD τ).loc main_arg13) := by
  show StableHlo.after hostOps1 (W2 m ρ c) (Proc.devRef .tc main_arg13) = _
  after_results_simp
  exact w2_arg13 m ρ c
/-- Not written by this stretch. -/
theorem w3_arg14 (c : Dev nD) : W3 m ρ c (Proc.devRef .tc main_arg14) = m ((c : Thread nD τ).loc main_arg14) := by
  show StableHlo.after hostOps1 (W2 m ρ c) (Proc.devRef .tc main_arg14) = _
  after_results_simp
  exact w2_arg14 m ρ c
/-- Not written by this stretch. -/
theorem w3_arg15 (c : Dev nD) : W3 m ρ c (Proc.devRef .tc main_arg15) = m ((c : Thread nD τ).loc main_arg15) := by
  show StableHlo.after hostOps1 (W2 m ρ c) (Proc.devRef .tc main_arg15) = _
  after_results_simp
  exact w2_arg15 m ρ c

/-! ## After the second pipelined call -/

theorem w4_v1 (c : Dev nD) : W4 m ρ c (Proc.devRef .tc main_v1) = val_main_v1 (F := Ideal) (m ((c : Thread nD τ).loc main_arg1)) :=
  (W4_of_ne m ρ c main_v1 (by decide)).trans (w3_v1 m ρ c)
theorem w4_v3 (c : Dev nD) : W4 m ρ c (Proc.devRef .tc main_v3) = val_main_v3 (F := Ideal) (m ((c : Thread nD τ).loc main_arg1)) :=
  (W4_of_ne m ρ c main_v3 (by decide)).trans (w3_v3 m ρ c)
theorem w4_v4 (c : Dev nD) : W4 m ρ c (Proc.devRef .tc main_v4) = val_main_v4 (F := Ideal) (m ((c : Thread nD τ).loc main_arg2)) :=
  (W4_of_ne m ρ c main_v4 (by decide)).trans (w3_v4 m ρ c)
theorem w4_arg13 (c : Dev nD) : W4 m ρ c (Proc.devRef .tc main_arg13) = m ((c : Thread nD τ).loc main_arg13) :=
  (W4_of_ne m ρ c main_arg13 (by decide)).trans (w3_arg13 m ρ c)
theorem w4_arg14 (c : Dev nD) : W4 m ρ c (Proc.devRef .tc main_arg14) = m ((c : Thread nD τ).loc main_arg14) :=
  (W4_of_ne m ρ c main_arg14 (by decide)).trans (w3_arg14 m ρ c)
theorem w4_arg15 (c : Dev nD) : W4 m ρ c (Proc.devRef .tc main_arg15) = m ((c : Thread nD τ).loc main_arg15) :=
  (W4_of_ne m ρ c main_arg15 (by decide)).trans (w3_arg15 m ρ c)

/-- The second layer's output is the reference's second layer of the same arguments. -/
theorem w4_v42 (c : Dev nD) : W4 m ρ c (Proc.devRef .tc main_v42) = val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 5).trans ((layer1_value (V3 m ρ) c).trans ?_)
  unfold layer1
  rw [show V3 m ρ c main_v37 = _ from w3_v37 m ρ c, show V3 m ρ c main_v38 = _ from w3_v38 m ρ c, show V3 m ρ c main_v39 = _ from w3_v39 m ρ c,
    show V3 m ρ c main_v40 = _ from w3_v40 m ρ c, show V3 m ρ c main_v41 = _ from w3_v41 m ρ c]
  exact (Cert.ReferenceIdeal.RefValue.layer1_eq _ _ _ _ _ _ _ _ _ _ _ _ shapeCasts_S32_S1x32).symm

end Cert.KernelIdeal.Hand

end
-- ==== Proof.Region2.lean ====
/-
  What the last pipelined call leaves in its output array, for any contents `V` of the core's buffers when the call is
  entered: the head `relu (mean · wl + bl + h · wr)` of the arrays the call's windows stage, index by index. Point `t` of the
  ten stages rows `5000 t … 5000 t + 4999` of the two activation arrays and of the output, and the weights and the bias whole.
-/
import proofs.«103794_j39651138076979_1_alg».proof.Proof.Gen.KernelIdeal.Frame
import proofs.«103794_j39651138076979_1_alg».proof.Proof.LibDenseLayers
import Idealize.ShloMosaic.Lib.Pipeline.Value

set_option maxRecDepth 16384

noncomputable section

open scoped BigOperators

namespace Cert.KernelIdeal.Hand

open Cert.KernelIdeal Cert.KernelIdeal.Gen Idealize.ShloMosaic.DenseLayers
open Idealize.ShloMosaic Idealize.ShloMosaic.TcCoe Idealize.ShloMosaic.ValueIdx Idealize.ShloMosaic.RowOps Idealize.SL.Sem
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The body's stored value at row `r` of the block, from the blocks it loads. -/
theorem pay2_apply (mean : Vec Ideal S5000x32 .f32) (wl : Vec Ideal S32x1 .f32) (h : Vec Ideal S5000x32 .f32) (wr : Vec Ideal S32x1 .f32)
    (bl : Vec Ideal S1x1 .f32) (r : Fin 5000) (j : Fin 1) :
    k2_pay1 (F := Ideal) mean wl h wr bl (ix2 r j) = sageAt mean h wl bl wr r j := by
  unfold k2_pay1
  exact sage_body_apply _ ⟨_, rfl⟩ mean h wl bl wr _ _ _ _ _ r j

/-- The output array after the call, as one function of the arrays the windows stage. -/
def layer2 (c : Dev nD) : Buf (Elt Ideal) ((c : Thread nD τ).loc main_v68) := fun i =>
  sageAt (V c main_v64 : S50000x32.Idx → Ideal .f32) (V c main_v42 : S50000x32.Idx → Ideal .f32) (V c main_v65 : S32x1.Idx → Ideal .f32)
    (V c main_v66 : S1x1.Idx → Ideal .f32) (V c main_v67 : S32x1.Idx → Ideal .f32) (i 0) (i 1)

/-- The printed index maps over the grid: the two activation arrays' and the output's row block is the point, every other
    block index is zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregated activations' block at point `t` is row `5000 t + p` of the array. -/
theorem iblk2_mean (c : Dev nD) (t : Fin cfg2.N) (p : Fin 5000) (l : Fin 32) (i : Fin 50000) (hi : i.val = t.val * 5000 + p.val) :
    (iblk2 V c 0 t : S5000x32.Idx → Ideal .f32) (ix2 p l) = (V c main_v64 : S50000x32.Idx → Ideal .f32) (ix2 i l) := by
  obtain ⟨e0, e1, -⟩ := idx_facts2 t
  unfold iblk2
  rw [View.read_apply]
  show (V c main_v64 : S50000x32.Idx → Ideal .f32) (((cfg2.win 0).blk t).view.emb (ix2 p l)) = _
  refine congrArg _ (funext fun a => Fin.ext ?_)
  match a with
  | ⟨0, _⟩ => show win2_0.index t (0 : Fin 2) * 5000 + 1 * p.val = i.val; rw [e0, hi]; omega
  | ⟨1, _⟩ => show win2_0.index t (1 : Fin 2) * 32 + 1 * l.val = l.val; rw [e1]; omega

/-- Row `p` of the node activations' block at point `t` is row `5000 t + p` of the array. -/
theorem iblk2_h (c : Dev nD) (t : Fin cfg2.N) (p : Fin 5000) (l : Fin 32) (i : Fin 50000) (hi : i.val = t.val * 5000 + p.val) :
    (iblk2 V c 1 t : S5000x32.Idx → Ideal .f32) (ix2 p l) = (V c main_v42 : S50000x32.Idx → Ideal .f32) (ix2 i l) := by
  obtain ⟨-, -, e0, e1, -⟩ := idx_facts2 t
  unfold iblk2
  rw [View.read_apply]
  show (V c main_v42 : S50000x32.Idx → Ideal .f32) (((cfg2.win 1).blk t).view.emb (ix2 p l)) = _
  refine congrArg _ (funext fun a => Fin.ext ?_)
  match a with
  | ⟨0, _⟩ => show win2_1.index t (0 : Fin 2) * 5000 + 1 * p.val = i.val; rw [e0, hi]; omega
  | ⟨1, _⟩ => show win2_1.index t (1 : Fin 2) * 32 + 1 * l.val = l.val; rw [e1]; omega

/-- The neighbour weights' block at any point is the whole column. -/
theorem iblk2_wl (c : Dev nD) (t : Fin cfg2.N) (l : Fin 32) (q : Fin 1) :
    (iblk2 V c 2 t : S32x1.Idx → Ideal .f32) (ix2 l q) = (V c main_v65 : S32x1.Idx → Ideal .f32) (ix2 l q) := by
  obtain ⟨-, -, -, -, e0, e1, -⟩ := idx_facts2 t
  unfold iblk2
  rw [View.read_apply]
  show (V c main_v65 : S32x1.Idx → Ideal .f32) (((cfg2.win 2).blk t).view.emb (ix2 l q)) = _
  refine congrArg _ (funext fun a => Fin.ext ?_)
  match a with
  | ⟨0, _⟩ => show win2_2.index t (0 : Fin 2) * 32 + 1 * l.val = l.val; rw [e0]; omega
  | ⟨1, _⟩ => show win2_2.index t (1 : Fin 2) * 1 + 1 * q.val = q.val; rw [e1]; omega

/-- The bias' block at any point is the one number. -/
theorem iblk2_bl (c : Dev nD) (t : Fin cfg2.N) (q : Fin 1) :
    (iblk2 V c 3 t : S1x1.Idx → Ideal .f32) (ix2 (0 : Fin 1) q) = (V c main_v66 : S1x1.Idx → Ideal .f32) (ix2 (0 : Fin 1) q) := by
  obtain ⟨-, -, -, -, -, -, e0, e1, -⟩ := idx_facts2 t
  unfold iblk2
  rw [View.read_apply]
  show (V c main_v66 : S1x1.Idx → Ideal .f32) (((cfg2.win 3).blk t).view.emb (ix2 (0 : Fin 1) q)) = _
  refine congrArg _ (funext fun a => Fin.ext ?_)
  match a with
  | ⟨0, _⟩ => show win2_3.index t (0 : Fin 2) * 1 + 1 * 0 = 0; rw [e0]
  | ⟨1, _⟩ => show win2_3.index t (1 : Fin 2) * 1 + 1 * q.val = q.val; rw [e1]; omega

/-- The root weights' block at any point is the whole column. -/
theorem iblk2_wr (c : Dev nD) (t : Fin cfg2.N) (l : Fin 32) (q : Fin 1) :
    (iblk2 V c 4 t : S32x1.Idx → Ideal .f32) (ix2 l q) = (V c main_v67 : S32x1.Idx → Ideal .f32) (ix2 l q) := by
  obtain ⟨-, -, -, -, -, -, -, -, e0, e1, -⟩ := idx_facts2 t
  unfold iblk2
  rw [View.read_apply]
  show (V c main_v67 : S32x1.Idx → Ideal .f32) (((cfg2.win 4).blk t).view.emb (ix2 l q)) = _
  refine congrArg _ (funext fun a => Fin.ext ?_)
  match a with
  | ⟨0, _⟩ => show win2_4.index t (0 : Fin 2) * 32 + 1 * l.val = l.val; rw [e0]; omega
  | ⟨1, _⟩ => show win2_4.index t (1 : Fin 2) * 1 + 1 * q.val = q.val; rw [e1]; omega

/-- What point `t` writes back is block `t` of the whole-array function. -/
theorem flushed2_eq (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero zero_off2]
  simp only [View.ld_unit_zero (S := S5000x32) zero_off2, View.ld_unit_zero (S := S32x1) zero_off2, View.ld_unit_zero (S := S1x1) zero_off2]
  funext y
  obtain ⟨p, q, rfl⟩ : ∃ (p : Fin 5000) (q : Fin 1), y = ix2 p q := ⟨y 0, y 1, eq_ix2 y⟩
  obtain ⟨-, -, -, -, -, -, -, -, -, -, e0, e1⟩ := idx_facts2 t
  have ht : t.val < 10 := by have h := t.isLt; have hN : cfg2.N = 10 := N_2; omega
  have hi : ((cfg2.win 5).blk t).view.emb (ix2 p q) = (ix2 (⟨t.val * 5000 + p.val, by have := p.isLt; omega⟩ : Fin 50000) q : S50000x1.Idx) :=
    funext fun a => Fin.ext (by
      match a with
      | ⟨0, _⟩ => show win2_5.index t (0 : Fin 2) * 5000 + 1 * p.val = t.val * 5000 + p.val; rw [e0]; omega
      | ⟨1, _⟩ => show win2_5.index t (1 : Fin 2) * 1 + 1 * q.val = q.val; rw [e1]; omega)
  show k2_pay1 (F := Ideal) (iblk2 V c 0 t) (iblk2 V c 2 t) (iblk2 V c 1 t) (iblk2 V c 4 t) (iblk2 V c 3 t) (ix2 p q)
    = layer2 V c (((cfg2.win 5).blk t).view.emb (ix2 p q))
  rw [hi, pay2_apply]
  show _ = sageAt _ _ _ _ _ (⟨t.val * 5000 + p.val, _⟩ : Fin 50000) q
  exact sageAt_congr (fun l => iblk2_mean V c t p l _ rfl) (fun l => iblk2_h V c t p l _ rfl) (fun l => iblk2_wl V c t l q)
    (iblk2_bl V c t q) (fun l => iblk2_wr V c t l q)

/-- An index of the output array is in point `t`'s block iff each coordinate is in the block's range on its axis. -/
theorem mem_blk2 (t : Fin cfg2.N) (i : S50000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v68).slice (win2_5.rect t)).set ↔ _
  rw [View.set_slice_whole, Rect.mem_set_unit]
  exact Iff.rfl

/-- Every index of the output array is in the block of the point its row falls in. -/
theorem cover2 (i : S50000x1.Idx) : ∃ t : Fin cfg2.N, (cfg2.win 5).flush t = true ∧ i ∈ ((cfg2.win 5).blk t).view.set := by
  have hN : cfg2.N = 10 := N_2
  have h0 : (i 0).val < 50000 := (i 0).isLt
  have h1 : (i 1).val < 1 := (i 1).isLt
  refine ⟨⟨(i 0).val / 5000, by rw [hN]; omega⟩, flush2_5 _, ?_⟩
  rw [mem_blk2]
  obtain ⟨-, -, -, -, -, -, -, -, -, -, e0, e1⟩ := idx_facts2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 1 ≤ (i 1).val ∧ (i 1).val < win2_5.index _ (1 : Fin 2) * 1 + 1
    rw [e1]; omega

/-- The output array after the call is the head of the arrays as the call finds them. -/
theorem layer2_value (c : Dev nD) : (dat2 V c).arrAt 5 cfg2.N = layer2 V c :=
  (dat2 V c).arrAt_eq_of_cover 5 (layer2 V c) (fun t _ => flushed2_eq V c t) (cover2)

end Cert.KernelIdeal.Hand

end
-- ==== Proof.Host2.lean ====
/-
  The idealized kernel's buffers from the end of its second pipelined call to its result. The last stretch of host
  operations forms the weighted mean of the second layer's output over each node's incoming edges (messages gathered by
  source and scaled by the edge weight, summed by destination, divided by the in-degree or one) and lays out the head's
  weights and bias: the reference's operations on the reference's second layer. The last call leaves the reference's result.
-/
import proofs.«103794_j39651138076979_1_alg».proof.Proof.Host1
import proofs.«103794_j39651138076979_1_alg».proof.Proof.Region2

set_option maxRecDepth 16384

noncomputable section

namespace Cert.KernelIdeal.Hand

open Cert.KernelIdeal Cert.KernelIdeal.Gen Idealize.ShloMosaic.DenseLayers Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the last stretch of host operations -/

/-- The weighted mean of the neighbours' activations. -/
theorem w5_v64 (c : Dev nD) : W5 m ρ c (Proc.devRef .tc main_v64) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v64) = _
  after_results_simp
  rw [w4_v42 m ρ c, w4_v1 m ρ c, w4_v3 m ρ c, w4_v4 m ρ c]
  rfl
/-- The second layer's output, not written by this stretch. -/
theorem w5_v42 (c : Dev nD) : W5 m ρ c (Proc.devRef .tc main_v42) = val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v42) = _
  after_results_simp
  exact w4_v42 m ρ c
/-- The neighbour weights, transposed. -/
theorem w5_v65 (c : Dev nD) : W5 m ρ c (Proc.devRef .tc main_v65) = val_main_v77 (F := Ideal) (m ((c : Thread nD τ).loc main_arg13)) := by
  show StableHlo.after hostOps2 (W4 m ρ c) (Proc.devRef .tc main_v65) = _
  after_results_simp
  rw [w4_arg13 m ρ c]
  rfl
/-- The head's bias as one entry. -/
theorem w5_v66 (c : Dev nD) : W5 m ρ c (Proc.devRef .tc main_v66) = shapeCast S1x1 (m ((c : Thread nD τ).loc main_arg14)) shapeCasts_S1_S1x1 := by
  show StableHlo.after hostOps2 (W4 m ρ c) (Proc.devRef .tc main_v66) = _
  after_results_simp
  rw [w4_arg14 m ρ c]
  rfl
/-- The root weights, transposed. -/
theorem w5_v67 (c : Dev nD) : W5 m ρ c (Proc.devRef .tc main_v67) = val_main_v82 (F := Ideal) (m ((c : Thread nD τ).loc main_arg15)) := by
  show StableHlo.after hostOps2 (W4 m ρ c) (Proc.devRef .tc main_v67) = _
  after_results_simp
  rw [w4_arg15 m ρ c]
  rfl

/-! ## After the last pipelined call -/

/-- The kernel's result is the reference's result of the same arguments. -/
theorem w6_v68 (c : Dev nD) : W6 m ρ c (Proc.devRef .tc main_v68) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 5).trans ((layer2_value (V5 m ρ) c).trans ?_)
  unfold layer2
  rw [show V5 m ρ c main_v64 = _ from w5_v64 m ρ c, show V5 m ρ c main_v42 = _ from w5_v42 m ρ c, show V5 m ρ c main_v65 = _ from w5_v65 m ρ c,
    show V5 m ρ c main_v66 = _ from w5_v66 m ρ c, show V5 m ρ c main_v67 = _ from w5_v67 m ρ c]
  exact (Cert.ReferenceIdeal.RefValue.layer2_eq _ _ _ _ _ _ _ _ _ _ _ _ _ _ _ _ shapeCasts_S1_S1x1).symm

end Cert.KernelIdeal.Hand

end
-- ==== Proof.lean ====
/-
  The certificate of a graph network's forward pass: two GIN layers and a SAGE head over 50000 nodes and 600000 edges. The
  kernel keeps the gathers and scatter-adds over the edges on the host and computes each dense stage in a pipelined call
  over ten blocks of 5000 nodes; the reference is one line of host operations. Over the extended reals the two compute the
  same function of the arguments, the same summands in the same order: every host operation of the kernel is an operation
  of the reference, and each pipelined call's output array is, index by index, the reference's dense stage of the call's
  operands (a `tpu.matmul` into the zero accumulator is the `dot_general`'s sum; narrowing to bf16 is the identity). So the
  kernel's result is the reference's result term, buffer by buffer from the arguments on, and no law of the extended reals
  and no finiteness of the inputs is used. The ideal pass rewrote nothing, so `preserves` is trivial.
-/
import proofs.«103794_j39651138076979_1_alg».proof.Defs
import proofs.«103794_j39651138076979_1_alg».proof.Proof.Gen.Kernel
import proofs.«103794_j39651138076979_1_alg».proof.Proof.Gen.Kernel.Skeleton
import proofs.«103794_j39651138076979_1_alg».proof.Proof.Gen.Kernel.Launch
import proofs.«103794_j39651138076979_1_alg».proof.Proof.Gen.Kernel.Points
import proofs.«103794_j39651138076979_1_alg».proof.Proof.Gen.Kernel.Frame
import proofs.«103794_j39651138076979_1_alg».proof.Proof.Gen.KernelIdeal
import proofs.«103794_j39651138076979_1_alg».proof.Proof.Gen.KernelIdeal.Skeleton
import proofs.«103794_j39651138076979_1_alg».proof.Proof.Gen.KernelIdeal.Launch
import proofs.«103794_j39651138076979_1_alg».proof.Proof.Gen.KernelIdeal.Points
import proofs.«103794_j39651138076979_1_alg».proof.Proof.Gen.KernelIdeal.Frame
import proofs.«103794_j39651138076979_1_alg».proof.Proof.Gen.ReferenceIdeal
import proofs.«103794_j39651138076979_1_alg».proof.Proof.Gen.Pre_finite_inputs
import proofs.«103794_j39651138076979_1_alg».proof.Proof.Gen.ReferenceIdeal.Run
import proofs.«103794_j39651138076979_1_alg».proof.Proof.Gen.ReferenceIdeal.Read
import proofs.«103794_j39651138076979_1_alg».proof.Proof.KernelRun
import proofs.«103794_j39651138076979_1_alg».proof.Proof.Host2
import Idealize.ShloMosaic.Adequacy
import Idealize.ShloMosaic.Init

noncomputable section

namespace Cert.Proof

open Idealize.ShloMosaic Idealize.SL.Sem

/-- The word-level kernel runs, nothing faulting, its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's result term of the (agreeing) arguments. -/
theorem algebraic : Cert.algebraic_KernelIdeal_ReferenceIdeal := by
  intro m ρ m' ρ' _ hagree
  refine ⟨fun c => Cert.ReferenceIdeal.Read.val_main_v85 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Hand.w6_v68 m ρ c), (h c).2⟩) (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
